-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x128 .f32) (main_arg1 : FVec F S65536x128 .f32) (main_arg2 : FVec F S65536x512 .f32) (main_arg3 : FVec F S128x512 .f32) (main_arg4 : IVec S65536x128 32) (main_arg5 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_v13 main_v16
-- ==== Kernel.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S512x128 : Shape := ⟨2, ![512, 128]⟩
abbrev S1x128 : Shape := ⟨2, ![1, 128]⟩
abbrev S16x128 : Shape := ⟨2, ![16, 128]⟩
abbrev S2048x512 : Shape := ⟨2, ![2048, 512]⟩
abbrev S2048x128 : Shape := ⟨2, ![2048, 128]⟩
abbrev S8x128 : Shape := ⟨2, ![8, 128]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x512, .f32⟩
  | .hbm, ⟨3, _⟩ => ⟨S128x512, .f32⟩
  | .hbm, ⟨4, _⟩ => ⟨S65536x128, .i32⟩
  | .hbm, ⟨5, _⟩ => ⟨S128, .f32⟩
  | .hbm, ⟨6, _⟩ => ⟨S512x128, .f32⟩
  | .hbm, ⟨7, _⟩ => ⟨S1x128, .f32⟩
  | .hbm, ⟨8, _⟩ => ⟨S16x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x128, .i32⟩
  | .local _ .vmem, ⟨3, _⟩ => ⟨S2048x128, .i32⟩
  | .local _ .vmem, ⟨4, _⟩ => ⟨S512x128, .f32⟩
  | .local _ .vmem, ⟨5, _⟩ => ⟨S1x128, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S128x512_S512x128_1_0 : S128x512.Transposes [1, 0] S512x128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S2048x128_S2048 : S2048x128.Reduces [1] S2048
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .i32 = 32 ∨ (Rect.block (s := S65536x128) S2048x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S_ : Shape := ⟨0, ![]⟩
abbrev S65536 : Shape := ⟨1, ![65536]⟩
abbrev S65536x1 : Shape := ⟨2, ![65536, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x512, .f32⟩
  | .hbm, ⟨3, _⟩ => ⟨S128x512, .f32⟩
  | .hbm, ⟨4, _⟩ => ⟨S65536x128, .i32⟩
  | .hbm, ⟨5, _⟩ => ⟨S128, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x512, .f32⟩
  | .hbm, ⟨15, _⟩ => ⟨S65536x512, .f32⟩
  | .hbm, ⟨16, _⟩ => ⟨S65536x128, .f32⟩
  | .hbm, ⟨17, _⟩ => ⟨S_, .f32⟩
  | .hbm, ⟨18, _⟩ => ⟨S65536x128, .f32⟩
  | .hbm, ⟨19, _⟩ => ⟨S65536x128, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S65536x128, .f32⟩
  | .hbm, ⟨24, _⟩ => ⟨S65536x128, .f32⟩
  | .hbm, ⟨25, _⟩ => ⟨S65536x128, .f32⟩
  | .hbm, ⟨26, _⟩ => ⟨S1x128, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S_, .f32⟩
  | .hbm, ⟨31, _⟩ => ⟨S65536x128, .f32⟩
  | .hbm, ⟨32, _⟩ => ⟨S65536x128, .f32⟩
  | .hbm, ⟨33, _⟩ => ⟨S65536x128, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x1, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S_, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S_S65536x128 : S_.BroadcastsInDim S65536x128 (![] : Fin 0 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536 : S_.BroadcastsInDim S65536 (![] : Fin 0 → Fin S65536.rank)
  reducesTo_S65536_S_d0 : S65536.ReducesTo [0] S_
  dot_S65536x512_S128x512_S65536x128_1_1_0_0_n_n_wf : DotDims.WF S65536x512 S128x512 S65536x128 [1] [1] [0] [0] [] []

variable [Facts₀]

def dot_S65536x512_S128x512_S65536x128_1_1_0_0_n_n : DotDims S65536x512 S128x512 S65536x128 where
  lhsContracting := [1]
  rhsContracting := [1]
  lhsNonContracting := [0]
  rhsNonContracting := [0]
  lhsBatch := []
  rhsBatch := []
  wf := dot_S65536x512_S128x512_S65536x128_1_1_0_0_n_n_wf

class Facts : Prop extends Facts₀ where

variable [Facts]
-- ==== Proof.Consts.lean ====
/-
  The two named constants of the idealized kernel, read at the extended reals.

  The kernel clamps a row's sum of squares from below by a constant that its source writes as the square of the
  reference's clamp of the norm, and scales the logits by a constant that its source writes as the reciprocal of
  the temperature the reference divides by.  At the ideal instance each name denotes that exact rational:
  the square of the reference's printed clamp word 2305843 / 2^61, and the reciprocal of the reference's printed
  temperature word 13421773 / 2^27.
-/
import proofs.«153820_j89678917140921_2_alg».proof.KernelIdeal
import Idealize.ShloMosaic.PureOps.Ideal
import Idealize.ShloMosaic.PureOps.IdealRules

noncomputable section

open Idealize.ShloMosaic

namespace Cert.Bridge.Consts

/-- The clamp under the reciprocal square root denotes the square of 2305843 / 2^61. -/
theorem eps_sq :
    Named.named (F := Ideal) Cert.KernelIdeal.κ "eps_sq" (φ := .f32) 0x179ABE15#32
      = ((5316911940649 / 5316911983139663491615228241121378304 : ℝ) : EReal) :=
  IdealRules.named_const.ideal_named_scalar _ _ _ _ rfl

/-- The logit scale denotes the reciprocal of 13421773 / 2^27. -/
theorem inv_temp :
    Named.named (F := Ideal) Cert.KernelIdeal.κ "inv_temp" (φ := .f32) 0x41200000#32
      = ((134217728 / 13421773 : ℝ) : EReal) :=
  IdealRules.named_const.ideal_named_scalar _ _ _ _ rfl

end Cert.Bridge.Consts

end
-- ==== Proof.Pieces.lean ====
/-
  What one run of the kernel's body leaves behind, as values.

  The body keeps a one-entry accumulator between the grid's points.  At every point it adds the block's sum of row
  terms to it; at the first block of a core it first resets it to zero; at the last block of a core it also spreads
  the accumulator over the core's output block.  Each of these is read here off the stores the run made: a buffer
  that was stored whole holds the stored value, and a load of a whole buffer reads the buffer's contents.
-/
import proofs.«153820_j89678917140921_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Bridge.Pieces

open Cert.KernelIdeal Cert.KernelIdeal.Gen

variable {F : FTy → Type} [FloatOps F] [Named F]

theorem hz : (![0, 0] : Fin 2 → Nat) = fun _ => 0 := funext fun a => by fin_cases a <;> rfl

/-- In the middle of a core's blocks the accumulator ends at the old accumulator plus the block's sum of row terms. -/
theorem scratch_B (c : Dev nD) (i : grid0.Coords) (a2 : Memref sig .tc .vmem S2048x512 .f32) (h2 : a2.IsWhole) (a3 : Memref sig .tc .vmem S2048x128 .i32) (h3 : a3.IsWhole) (a4 : Memref sig .tc .vmem S512x128 .f32) (h4 : a4.IsWhole) (a5 : Memref sig .tc .vmem S1x128 .f32) (h5 : a5.IsWhole) (a6 : Memref sig .tc .vmem S8x128 .f32) (h6 : a6.IsWhole) (a7 : Memref sig .tc .vmem S1x1 .f32) (h7 : a7.IsWhole) (hc0 : ¬cond0_0 i) (hc1 : ¬cond0_1 i) (x0 : Vec F S2048x512 .f32) (x1 : Vec F S2048x128 .i32) (x2 : Vec F S512x128 .f32) (x3 : Vec F S1x128 .f32) (xs0 : Vec F S1x1 .f32) :
    sout0_B_0 c i a2 h2 a3 h3 a4 h4 a5 h5 a6 h6 a7 h7 hc0 hc1 x0 x1 x2 x3 xs0 = k0_pay1 (k0_pay4 x0 x2 x1 x3) xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S2048x512) hz, View.ld_unit_zero (S := S2048x128) hz, View.ld_unit_zero (S := S512x128) hz,
    View.ld_unit_zero (S := S1x128) hz, View.ld_unit_zero (S := S1x1) hz]

/-- At a core's last block the accumulator ends the same way ... -/
theorem scratch_C (c : Dev nD) (i : grid0.Coords) (a2 : Memref sig .tc .vmem S2048x512 .f32) (h2 : a2.IsWhole) (a3 : Memref sig .tc .vmem S2048x128 .i32) (h3 : a3.IsWhole) (a4 : Memref sig .tc .vmem S512x128 .f32) (h4 : a4.IsWhole) (a5 : Memref sig .tc .vmem S1x128 .f32) (h5 : a5.IsWhole) (a6 : Memref sig .tc .vmem S8x128 .f32) (h6 : a6.IsWhole) (a7 : Memref sig .tc .vmem S1x1 .f32) (h7 : a7.IsWhole) (hc0 : ¬cond0_0 i) (hc1 : cond0_1 i) (x0 : Vec F S2048x512 .f32) (x1 : Vec F S2048x128 .i32) (x2 : Vec F S512x128 .f32) (x3 : Vec F S1x128 .f32) (xs0 : Vec F S1x1 .f32) :
    sout0_C_0 c i a2 h2 a3 h3 a4 h4 a5 h5 a6 h6 a7 h7 hc0 hc1 x0 x1 x2 x3 xs0 = k0_pay1 (k0_pay4 x0 x2 x1 x3) xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S2048x512) hz, View.ld_unit_zero (S := S2048x128) hz, View.ld_unit_zero (S := S512x128) hz,
    View.ld_unit_zero (S := S1x128) hz, View.ld_unit_zero (S := S1x1) hz]

/-- ... and the output block is that accumulator spread over the block. -/
theorem out_C (c : Dev nD) (i : grid0.Coords) (a2 : Memref sig .tc .vmem S2048x512 .f32) (h2 : a2.IsWhole) (a3 : Memref sig .tc .vmem S2048x128 .i32) (h3 : a3.IsWhole) (a4 : Memref sig .tc .vmem S512x128 .f32) (h4 : a4.IsWhole) (a5 : Memref sig .tc .vmem S1x128 .f32) (h5 : a5.IsWhole) (a6 : Memref sig .tc .vmem S8x128 .f32) (h6 : a6.IsWhole) (a7 : Memref sig .tc .vmem S1x1 .f32) (h7 : a7.IsWhole) (hc0 : ¬cond0_0 i) (hc1 : cond0_1 i) (x0 : Vec F S2048x512 .f32) (x1 : Vec F S2048x128 .i32) (x2 : Vec F S512x128 .f32) (x3 : Vec F S1x128 .f32) (xs0 : Vec F S1x1 .f32) :
    out0_C_4 c i a2 h2 a3 h3 a4 h4 a5 h5 a6 h6 a7 h7 hc0 hc1 x0 x1 x2 x3 xs0 = k0_pay2 (k0_pay1 (k0_pay4 x0 x2 x1 x3) xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S1x1) _ hz]
  simp only [View.readAt_eq_ld, h2.read_unread, h3.read_unread, h4.read_unread, h5.read_unread, h7.read_unread,
    View.ld_unit_zero (S := S2048x512) hz, View.ld_unit_zero (S := S2048x128) hz, View.ld_unit_zero (S := S512x128) hz,
    View.ld_unit_zero (S := S1x128) hz, View.ld_unit_zero (S := S1x1) hz]

/-- At a core's first block the accumulator is reset to zero first, so it ends at zero plus the block's sum. -/
theorem scratch_A (c : Dev nD) (i : grid0.Coords) (a2 : Memref sig .tc .vmem S2048x512 .f32) (h2 : a2.IsWhole) (a3 : Memref sig .tc .vmem S2048x128 .i32) (h3 : a3.IsWhole) (a4 : Memref sig .tc .vmem S512x128 .f32) (h4 : a4.IsWhole) (a5 : Memref sig .tc .vmem S1x128 .f32) (h5 : a5.IsWhole) (a6 : Memref sig .tc .vmem S8x128 .f32) (h6 : a6.IsWhole) (a7 : Memref sig .tc .vmem S1x1 .f32) (h7 : a7.IsWhole) (hc0 : cond0_0 i) (hc1 : ¬cond0_1 i) (x0 : Vec F S2048x512 .f32) (x1 : Vec F S2048x128 .i32) (x2 : Vec F S512x128 .f32) (x3 : Vec F S1x128 .f32) :
    sout0_A_0 c i a2 h2 a3 h3 a4 h4 a5 h5 a6 h6 a7 h7 hc0 hc1 x0 x1 x2 x3 = k0_pay1 (k0_pay4 x0 x2 x1 x3) k0_pay3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S2048x512) hz, View.ld_unit_zero (S := S2048x128) hz, View.ld_unit_zero (S := S512x128) hz,
    View.ld_unit_zero (S := S1x128) hz, View.ld_unit_zero (S := S1x1) hz]

end Cert.Bridge.Pieces

end
-- ==== Proof.Carry.lean ====
/-
  The accumulator from point to point, in terms of the body's pure terms.

  At every point the accumulator becomes (old accumulator) + (the block's sum of row terms); at the first block of a
  core the old accumulator is the zero it was just reset to, otherwise it is what the point before left.  At the last
  block of a core the output block is the new accumulator spread over the block.
-/
import proofs.«153820_j89678917140921_2_alg».proof.Proof.Pieces

noncomputable section

open Idealize.ShloMosaic Idealize.ShloMosaic.TcCoe Idealize.SL.Sem
open Idealize.ShloMosaic.Pipeline (Dat)

namespace Cert.Bridge.Carry

open Cert.KernelIdeal Cert.KernelIdeal.Gen

variable {F : FTy → Type} [FloatOps F] [Named F]
variable (m : (ℓ : Loc nD τ sig) → Buf (Elt F) ℓ)

/-- The matrix of row terms the body computes at point t from the point's four input blocks. -/
def rowTerms (c : Dev nD) (t : Fin cfg0.N) : FVec F S2048x128 .f32 :=
  k0_pay4 (iblk m c 0 t) (iblk m c 2 t) (iblk m c 1 t) (iblk m c 3 t)

/-- The accumulator after point t. -/
def acc (c : Dev nD) (t : Fin cfg0.N) : Vec F S1x1 .f32 := (outsAt0 m c t.val t.isLt).2

/-- At a core's first block: zero plus the block's sum. -/
theorem acc_first (c : Dev nD) (t : Fin cfg0.N) (h0 : t.val % 16 = 0) :
    acc m c t = k0_pay1 (rowTerms m c t) k0_pay3 := by
  have h1 : ¬t.val % 16 = 15 := by omega
  unfold acc
  rw [outsAt0_A m c t h0 h1]
  dsimp only
  exact Pieces.scratch_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- At any later block of a core: what the point before left plus the block's sum. -/
theorem acc_next (c : Dev nD) (t : Fin cfg0.N) (h0 : ¬t.val % 16 = 0) :
    acc m c t = k0_pay1 (rowTerms m c t) (outsAt0 m c (t.val - 1) (Nat.lt_of_le_of_lt (Nat.sub_le _ _) t.isLt)).2 := by
  unfold acc
  by_cases h1 : t.val % 16 = 15
  · rw [outsAt0_C m c t h0 h1]
    dsimp only
    exact Pieces.scratch_C c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Pieces.scratch_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t)
      (outsAt0 m c (t.val - 1) (Nat.lt_of_le_of_lt (Nat.sub_le _ _) t.isLt)).2

/-- At a core's last block the output block is the accumulator, spread over the block. -/
theorem out_last (c : Dev nD) (t : Fin cfg0.N) (h1 : t.val % 16 = 15) :
    (outsAt0 m c t.val t.isLt).1 = k0_pay2 (acc m c t) := by
  have h0 : ¬t.val % 16 = 0 := by omega
  unfold acc
  rw [outsAt0_C m c t h0 h1]
  dsimp only
  rw [Pieces.scratch_C c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)).2]
  exact Pieces.out_C c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

end Cert.Bridge.Carry

end
-- ==== Proof.Blocks.lean ====
/-
  What the kernel's four input windows hold at a grid point, read off the argument arrays.

  Point t (of 32) sees rows 2048·t … 2048·t + 2047 of the features and of the labels; the prototypes arrive transposed
  (feature d, prototype p) and whole at every point, and so do the prototype weights as a single row.
-/
import proofs.«153820_j89678917140921_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bridge.Blocks

open Cert.KernelIdeal Cert.KernelIdeal.Gen

variable {F : FTy → Type} [FloatOps F] [Named F]
variable (m : (ℓ : Loc nD τ sig) → Buf (Elt F) ℓ)

/-- The printed index maps over the 32 points: the feature and label blocks move with the point, the prototypes and
    weights stay, and the output block is the core's (the point's number over 16). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- The feature block at point t is rows 2048·t … of the feature array. -/
theorem features_block (c : Dev nD) (t : Fin cfg0.N) (r : Fin 2048) (d : Fin 512) (hrow : 2048 * t.val + r.val < 65536) :
    (iblk m c 0 t : Vec F S2048x512 .f32) (ix2 r d) = m ((c : Thread nD τ).loc main_arg2) (ix2 ⟨2048 * t.val + r.val, hrow⟩ d) := by
  obtain ⟨e0, e1, -⟩ := idx_facts t
  unfold iblk
  rw [View.read_apply]
  show V m c main_arg2 _ = _
  rw [V_main_arg2]
  congr 1
  funext a; apply Fin.ext
  match a with
  | ⟨0, _⟩ => show win0_0.index t (0 : Fin 2) * 2048 + 1 * r.val = 2048 * t.val + r.val; omega
  | ⟨1, _⟩ => show win0_0.index t (1 : Fin 2) * 512 + 1 * d.val = d.val; omega

/-- The label block at point t is rows 2048·t … of the label array. -/
theorem labels_block (c : Dev nD) (t : Fin cfg0.N) (r : Fin 2048) (p : Fin 128) (hrow : 2048 * t.val + r.val < 65536) :
    (iblk m c 1 t : Vec F S2048x128 .i32) (ix2 r p) = m ((c : Thread nD τ).loc main_arg4) (ix2 ⟨2048 * t.val + r.val, hrow⟩ p) := by
  obtain ⟨-, -, e0, e1, -⟩ := idx_facts t
  unfold iblk
  rw [View.read_apply]
  show V m c main_arg4 _ = _
  rw [V_main_arg4]
  congr 1
  funext a; apply Fin.ext
  match a with
  | ⟨0, _⟩ => show win0_1.index t (0 : Fin 2) * 2048 + 1 * r.val = 2048 * t.val + r.val; omega
  | ⟨1, _⟩ => show win0_1.index t (1 : Fin 2) * 128 + 1 * p.val = p.val; omega

/-- Before the grid starts the prototypes are transposed ... -/
theorem protos_array (c : Dev nD) : (V m c main_v0 : S512x128.Idx → Elt F .f32)
    = transpose S512x128 [1, 0] (m ((c : Thread nD τ).loc main_arg3)) transposes_S128x512_S512x128_1_0 := by
  show StableHlo.after hostOps0 (fun b => m (c, b)) (Proc.devRef .tc main_v0) = _
  after_results

/-- ... and the weights laid out as one row. -/
theorem weights_array (c : Dev nD) : (V m c main_v1 : S1x128.Idx → Elt F .f32)
    = shapeCast S1x128 (m ((c : Thread nD τ).loc main_arg5)) shapeCasts_S128_S1x128 := by
  show StableHlo.after hostOps0 (fun b => m (c, b)) (Proc.devRef .tc main_v1) = _
  after_results
  rfl

/-- The prototype block at every point is the whole transposed prototype array: entry (d, p) is prototype p's feature d. -/
theorem protos_block (c : Dev nD) (t : Fin cfg0.N) (d : Fin 512) (p : Fin 128) :
    (iblk m c 2 t : Vec F S512x128 .f32) (ix2 d p) = m ((c : Thread nD τ).loc main_arg3) (ix2 p d) := by
  obtain ⟨-, -, -, -, e0, e1, -⟩ := idx_facts t
  unfold iblk
  rw [View.read_apply]
  show V m c main_v0 _ = _
  rw [protos_array]
  have hj : ((cfg0.win 2).blk t).view.emb (ix2 d p) = (ix2 d p : S512x128.Idx) := by
    funext a; apply Fin.ext
    match a with
    | ⟨0, _⟩ => show win0_2.index t (0 : Fin 2) * 512 + 1 * d.val = d.val; omega
    | ⟨1, _⟩ => show win0_2.index t (1 : Fin 2) * 128 + 1 * p.val = p.val; omega
  rw [hj]
  exact transpose_apply _ _ _ _ (ix2 p d) (fun b => by match b with | ⟨0, _⟩ => rfl | ⟨1, _⟩ => rfl)

/-- The weight block at every point is the whole row of prototype weights. -/
theorem weights_block (c : Dev nD) (t : Fin cfg0.N) (p : Fin 128) :
    (iblk m c 3 t : Vec F S1x128 .f32) (ix2 0 p) = m ((c : Thread nD τ).loc main_arg5) (ix1 p) := by
  obtain ⟨-, -, -, -, -, -, e0, e1, -⟩ := idx_facts t
  unfold iblk
  rw [View.read_apply]
  show V m c main_v1 _ = _
  rw [weights_array]
  have hj : ((cfg0.win 3).blk t).view.emb (ix2 0 p) = (ix2 0 p : S1x128.Idx) := by
    funext a; apply Fin.ext
    match a with
    | ⟨0, _⟩ => show win0_3.index t (0 : Fin 2) * 1 + 1 * 0 = 0; omega
    | ⟨1, _⟩ => show win0_3.index t (1 : Fin 2) * 128 + 1 * p.val = p.val; omega
  rw [hj]
  refine (shapeCast_addUnit_apply (n := 1) ![128] _ _ _).trans (congrArg _ ?_)
  funext a
  match a with
  | ⟨0, _⟩ => rfl

end Cert.Bridge.Blocks

end
-- ==== Proof.Spec.lean ====
/-
  The mathematics both programs compute, as plain functions on the extended reals.

  A row of features x (512 entries) is scaled to unit length with its length clamped from below, multiplied against the
  128 prototype rows and scaled by the inverse temperature: the row's 128 logits.  From the logits L and the row's mask
  (label times prototype weight) the row's term is

      c · Σ_p mask_p · ((L_p − M) − log Σ_q exp (L_q − M) · (1 − mask_q)),     M = max_p L_p,

  and the result is the sum of the rows' terms over all 65536 rows, divided by 65536.

  The two programs differ only in how a row is scaled and how the logits are scaled:
    the kernel multiplies by the reciprocal square root of max(Σx², ε²) and then by 1/T,
    the reference divides by max(√Σx², ε) and then by T,
  with ε and T the reference's two constants.  The two scalings are written here side by side (kScale / rScale and
  kLogit / rLogit); that they agree on rows of real numbers is the law proved in the module on the normalisation.
-/
import Idealize.ShloMosaic.PureOps.Ideal
import Idealize.ShloMosaic.Lib.ValueIdx

noncomputable section

open scoped BigOperators

namespace Cert.Bridge.Spec

open Idealize.ShloMosaic

/-! ## The constants -/

/-- The reference's clamp of a row's length: the word of 1e-12, which is 2305843 / 2^61. -/
abbrev eps : EReal := Ideal.ofBits .f32 0x2B8CBCCC#32
/-- The kernel's clamp of a row's squared length: the square of the reference's clamp. -/
abbrev epsSq : EReal := ((5316911940649 / 5316911983139663491615228241121378304 : ℝ) : EReal)
/-- The reference's temperature: the word of 0.1, which is 13421773 / 2^27. -/
abbrev temp : EReal := Ideal.ofBits .f32 0x3DCCCCCD#32
/-- The kernel's logit scale: the reciprocal of the reference's temperature. -/
abbrev invTemp : EReal := ((134217728 / 13421773 : ℝ) : EReal)
/-- The factor of a row's term: the word of -0.1, the same in both programs. -/
abbrev negTemp : EReal := Ideal.ofBits .f32 0xBDCCCCCD#32
/-- The word of 1.0. -/
abbrev one : EReal := Ideal.ofBits .f32 0x3F800000#32
/-- The word of -∞, from which a row's maximum is folded. -/
abbrev negInf : EReal := Ideal.ofBits .f32 0xFF800000#32
/-- The word of 65536.0, the number of rows. -/
abbrev nRows : EReal := Ideal.ofBits .f32 0x47800000#32

/-! ## One row -/

/-- A row's squared length. -/
def sqsum (x : Fin 512 → EReal) : EReal := ∑ d, x d * x d

/-- The kernel's scaling of a row: times the reciprocal square root of the clamped squared length. -/
def kScale (x : Fin 512 → EReal) (d : Fin 512) : EReal := x d * Ideal.rsqrt (max (sqsum x) epsSq)

/-- The reference's scaling of a row: divided by the clamped length. -/
def rScale (x : Fin 512 → EReal) (d : Fin 512) : EReal := Ideal.div (x d) (max (Ideal.sqrt (sqsum x)) eps)

/-- The kernel's logits of a row against the prototypes W (prototype p, feature d). -/
def kLogit (x : Fin 512 → EReal) (W : Fin 128 → Fin 512 → EReal) (p : Fin 128) : EReal :=
  (∑ d, kScale x d * W p d) * invTemp

/-- The reference's logits of a row. -/
def rLogit (x : Fin 512 → EReal) (W : Fin 128 → Fin 512 → EReal) (p : Fin 128) : EReal :=
  Ideal.div (∑ d, rScale x d * W p d) temp

/-- A row's mask: the label, read as a signed integer, times the prototype's weight. -/
def maskRow (lab : Fin 128 → BitVec 32) (w : Fin 128 → EReal) (p : Fin 128) : EReal :=
  (((lab p).toInt : ℝ) : EReal) * w p

/-- A row's largest logit, folded from -∞. -/
def rowMax (L : Fin 128 → EReal) : EReal := (Finset.univ : Finset (Fin 128)).fold max negInf L

/-- The sum under the logarithm: the shifted logits' exponentials weighted by one minus the mask. -/
def rowSumExp (L mask : Fin 128 → EReal) : EReal := ∑ q, Ideal.exp (L q - rowMax L) * (one - mask q)

/-- One prototype's contribution to a row's term. -/
def rowTerm (L mask : Fin 128 → EReal) (p : Fin 128) : EReal :=
  mask p * ((L p - rowMax L) - Ideal.log (rowSumExp L mask))

/-- A row's term. -/
def rowLoss (L mask : Fin 128 → EReal) : EReal := negTemp * ∑ p, rowTerm L mask p

/-! ## The rows read off the argument arrays -/

open Idealize.ShloMosaic.ValueIdx in
/-- Row n's term as the kernel computes it, from the features X, the prototypes W (prototype p, feature d), the labels
    and the prototype weights. -/
def kerRow (X : (⟨2, ![65536, 512]⟩ : Shape).Idx → EReal) (W : (⟨2, ![128, 512]⟩ : Shape).Idx → EReal)
    (Lb : (⟨2, ![65536, 128]⟩ : Shape).Idx → BitVec 32) (w : (⟨1, ![128]⟩ : Shape).Idx → EReal) (n : Fin 65536) : EReal :=
  rowLoss (kLogit (fun d => X (ix2 n d)) (fun p d => W (ix2 p d))) (maskRow (fun p => Lb (ix2 n p)) (fun p => w (ix1 p)))

open Idealize.ShloMosaic.ValueIdx in
/-- Row n's term as the reference computes it. -/
def refRow (X : (⟨2, ![65536, 512]⟩ : Shape).Idx → EReal) (W : (⟨2, ![128, 512]⟩ : Shape).Idx → EReal)
    (Lb : (⟨2, ![65536, 128]⟩ : Shape).Idx → BitVec 32) (w : (⟨1, ![128]⟩ : Shape).Idx → EReal) (n : Fin 65536) : EReal :=
  rowLoss (rLogit (fun d => X (ix2 n d)) (fun p d => W (ix2 p d))) (maskRow (fun p => Lb (ix2 n p)) (fun p => w (ix1 p)))

/-! ## All rows -/

/-- Row r of block b, the blocks being 2048 consecutive rows each. -/
def rowIx (b : Fin 32) (r : Fin 2048) : Fin 65536 := ⟨2048 * b.val + r.val, by have := b.isLt; have := r.isLt; omega⟩

/-- The result as the reference computes it from the rows' terms f: their sum from 0, over 65536, times 1. -/
def refTotal (f : Fin 65536 → EReal) : EReal := one * Ideal.div (0 + ∑ n, f n) nRows

/-- One block's sum of its rows' terms (there are 32 blocks; a block number beyond them contributes nothing). -/
def blockSum (f : Fin 65536 → EReal) (b : ℕ) : EReal := if h : b < 32 then ∑ r : Fin 2048, f (rowIx ⟨b, h⟩ r) else 0

/-- What core c's accumulator holds after its j-th block (blocks 16·c … 16·c + j, added in order from 0). -/
def coreAcc (f : Fin 65536 → EReal) (c : ℕ) : ℕ → EReal
  | 0 => 0 + blockSum f (16 * c)
  | j + 1 => coreAcc f c j + blockSum f (16 * c + (j + 1))

/-- The result as the kernel computes it: the two cores' accumulators after their last block, added, times 1, over 65536. -/
def kerTotal (f : Fin 65536 → EReal) : EReal :=
  Ideal.div (one * (coreAcc f 0 15 + coreAcc f 1 15)) nRows

end Cert.Bridge.Spec

end
-- ==== Proof.Payload.lean ====
/-
  The kernel body's arithmetic read at an index, at the extended reals.

  The body computes, for a block of 2048 rows, the matrix of the rows' terms: a row of features is multiplied by the
  reciprocal square root of its clamped squared length, contracted against the 128 prototypes and multiplied by the
  logit scale; the row's largest logit is subtracted; and each prototype's entry is the row's mask there times the
  shifted logit minus the logarithm of the row's weighted sum of exponentials.  Read at row r and prototype p this is
  the specification's rowTerm of the row's logits and mask.  The accumulator receives, added to what it held, the sum
  over the rows of the factor times the row's sum over the prototypes; the output block is the accumulator's one entry
  everywhere; and the accumulator starts from zero.

  The steps that are not entry by entry are read first, each over an arbitrary vector: a sum or a maximum along a row
  kept as a one-column matrix, a one-column matrix spread along the rows, a sum down a column, and the contraction of
  a matrix product over its one contracted coordinate.
-/
import proofs.«153820_j89678917140921_2_alg».proof.Proof.Spec
import proofs.«153820_j89678917140921_2_alg».proof.Proof.Consts
import proofs.«153820_j89678917140921_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.Payload

open Idealize.ShloMosaic Idealize.ShloMosaic.ValueIdx Cert.Bridge.Spec Cert.KernelIdeal Cert.KernelIdeal.Gen

/-! ## Layout steps read at coordinates -/

section Layout
variable {α : Type}

/-- A vector of length a seen as an [a, 1] matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] matrix spread along its rows to [a, b] reads, at (p, c), the one entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] matrix spread to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (i : (⟨2, ![a, b]⟩ : Shape).Idx) :
    broadcastTo ⟨2, ![a, b]⟩ v h i = v (ix2 (0 : Fin 1) (0 : Fin 1)) :=
  broadcastTo_apply v h i _ fun ax => match ax with
    | ⟨0, _⟩ => rfl
    | ⟨1, _⟩ => rfl

end Layout

/-! ## Sums and maxima along one axis, read at coordinates -/

/-- The sum along the rows of an [m, n] matrix, at row r, is the sum of the row's entries. -/
theorem rowSum_apply {m n : ℕ} (v : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (r : Fin m) :
    multiReduction .add [1] ⟨1, ![m]⟩ v acc h hφ hacc (ix1 r) = ∑ k : Fin n, v (ix2 r k) := by
  refine (Ideal.multiReduction_add_single v acc h hφ hacc (ix1 r)).trans ?_
  refine Finset.sum_congr rfl fun k _ => congrArg v ?_
  funext c
  exact Fin.ext (by match c with | ⟨0, _⟩ => rfl | ⟨1, _⟩ => rfl)

/-- The sum down the one column of an [m, 1] matrix is the sum of its entries. -/
theorem colSum_apply {m : ℕ} (v : FVec Ideal ⟨2, ![m, 1]⟩ .f32) (acc : BitVec 32)
    (h : (⟨2, ![m, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ k : Fin m, v (ix2 k u) := by
  refine (Ideal.multiReduction_add_single v acc h hφ hacc (ix1 u)).trans ?_
  refine Finset.sum_congr rfl fun k _ => congrArg v ?_
  funext c
  exact Fin.ext (by match c with | ⟨0, _⟩ => rfl | ⟨1, _⟩ => rfl)

/-- The maximum along the rows of an [m, n] matrix, at row r, is the fold of max over the row's entries from the
    value of the word it starts from. -/
theorem rowMax_apply {m n : ℕ} (v : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (r : Fin m) :
    multiReduction .maximumf [1] ⟨1, ![m]⟩ v acc h hφ hacc (ix1 r)
      = (Finset.univ : Finset (Fin n)).fold max (Ideal.ofBits .f32 acc) (fun k => v (ix2 r k)) := by
  refine (Ideal.multiReduction_maximumf_single v acc h hφ hacc (ix1 r)).trans ?_
  refine congrArg (fun f => (Finset.univ : Finset (Fin n)).fold max (Ideal.ofBits .f32 acc) f) ?_
  funext k
  refine congrArg v ?_
  funext c
  exact Fin.ext (by match c with | ⟨0, _⟩ => rfl | ⟨1, _⟩ => rfl)

/-- A row sum kept as an [m, 1] matrix, at (r, u). -/
theorem rowSumCol_apply {m n : ℕ} (v : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (hc : (⟨1, ![m]⟩ : Shape).ShapeCasts ⟨2, ![m, 1]⟩) (r : Fin m) (u : Fin 1) :
    shapeCast ⟨2, ![m, 1]⟩ (multiReduction .add [1] ⟨1, ![m]⟩ v acc h hφ hacc) hc (ix2 r u) = ∑ k : Fin n, v (ix2 r k) :=
  (shapeCast_a_a1_apply _ hc r u).trans (rowSum_apply v acc h hφ hacc r)

/-- A row maximum kept as an [m, 1] matrix, at (r, u). -/
theorem rowMaxCol_apply {m n : ℕ} (v : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (hc : (⟨1, ![m]⟩ : Shape).ShapeCasts ⟨2, ![m, 1]⟩) (r : Fin m) (u : Fin 1) :
    shapeCast ⟨2, ![m, 1]⟩ (multiReduction .maximumf [1] ⟨1, ![m]⟩ v acc h hφ hacc) hc (ix2 r u)
      = (Finset.univ : Finset (Fin n)).fold max (Ideal.ofBits .f32 acc) (fun k => v (ix2 r k)) :=
  (shapeCast_a_a1_apply _ hc r u).trans (rowMax_apply v acc h hφ hacc r)

/-! ## The matrix product read at coordinates -/

/-- The left operand's index of the product: its row is the result's row … -/
theorem lhs_row (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
/-- … and its column the contracted coordinate. -/
theorem lhs_col (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
/-- The right operand's index: its row is the contracted coordinate … -/
theorem rhs_row (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
/-- … and its column the result's column. -/
theorem rhs_col (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- The product of a [2048, 512] by a [512, 128] matrix into zero, at (r, p): the sum over the 512 contracted
    coordinates of the left operand's row r times the right operand's column p. -/
theorem matmul_ix2_apply (lhs : FVec Ideal S2048x512 .bf16) (rhs : FVec Ideal S512x128 .bf16) (r : Fin 2048) (p : Fin 128) :
    matmul dot_S2048x512_S512x128_S2048x128_1_0_0_1_n_n none lhs rhs (constant (F := Ideal) S2048x128 .f32 0x00000000#32) (ix2 r p)
      = ∑ k : Fin 512, lhs (ix2 r k) * rhs (ix2 k p) := by
  refine (Ideal.matmul_constant_zero_apply dot_S2048x512_S512x128_S2048x128_1_0_0_1_n_n none lhs rhs (ix2 r p)).trans ?_
  rw [← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r p)
      ((contrEquiv1 dot_S2048x512_S512x128_S2048x128_1_0_0_1_n_n 512 rfl rfl).symm k) = ix2 r k :=
    funext fun a => Fin.ext (by
      match a with
      | ⟨0, _⟩ => exact lhs_row _ _
      | ⟨1, _⟩ => exact (lhs_col _ _).trans hk)
  have er : dot_S2048x512_S512x128_S2048x128_1_0_0_1_n_n.rhsIdx (ix2 r p)
      ((contrEquiv1 dot_S2048x512_S512x128_S2048x128_1_0_0_1_n_n 512 rfl rfl).symm k) = ix2 k p :=
    funext fun a => Fin.ext (by
      match a with
      | ⟨0, _⟩ => exact (rhs_row _ _).trans hk
      | ⟨1, _⟩ => exact rhs_col _ _)
  rw [el, er]

/-! ## The row's scaled features, logits and term, each over arbitrary vectors -/

/-- A row of features times the reciprocal square root of its squared length clamped from below by c, at (r, d):
    the specification's scaling of row r when c is its clamp. -/
theorem scaled_apply (x : FVec Ideal S2048x512 .f32) (c : Ideal .f32) (hcl : c = epsSq)
    (h : S2048x512.Reduces [1] S2048) (hφ : FKind.Formats .f32)
    (hA : (0x00000000#32 : BitVec 32) = FKind.add.neutral .f32 hφ)
    (hc : S2048.ShapeCasts S2048x1) (hb : S2048x1.Broadcasts S2048x512) (r : Fin 2048) (d : Fin 512) :
    mulf x (broadcastTo S2048x512 (rsqrt (maximumf (shapeCast S2048x1
        (multiReduction .add [1] S2048 (mulf x x) 0x00000000#32 h hφ hA) hc) (broadcast S2048x1 c))) hb) (ix2 r d)
      = kScale (fun d => x (ix2 r d)) d := by
  subst hcl
  refine congrArg (x (ix2 r d) * ·) ?_
  refine (broadcastTo_a1_ab_apply _ hb r d).trans ?_
  refine congrArg Ideal.rsqrt ?_
  refine congrArg (max · epsSq) ?_
  exact rowSumCol_apply (mulf x x) _ h hφ hA hc r 0

/-- The product into zero times the scale s, at (r, q). -/
theorem logits_apply (lhs : FVec Ideal S2048x512 .bf16) (rhs : FVec Ideal S512x128 .bf16) (s : Ideal .f32)
    (r : Fin 2048) (q : Fin 128) :
    mulf (matmul dot_S2048x512_S512x128_S2048x128_1_0_0_1_n_n none lhs rhs (constant (F := Ideal) S2048x128 .f32 0x00000000#32))
        (broadcast S2048x128 s) (ix2 r q)
      = (∑ k : Fin 512, lhs (ix2 r k) * rhs (ix2 k q)) * s :=
  congrArg (· * s) (matmul_ix2_apply lhs rhs r q)

/-- The logits with their row's maximum subtracted, at (r, q). -/
theorem shifted_apply (L : FVec Ideal S2048x128 .f32) (h : S2048x128.Reduces [1] S2048) (hφ : FKind.Formats .f32)
    (hM : (0xFF800000#32 : BitVec 32) = FKind.maximumf.neutral .f32 hφ)
    (hc : S2048.ShapeCasts S2048x1) (hb : S2048x1.Broadcasts S2048x128) (r : Fin 2048) (q : Fin 128) :
    subf L (broadcastTo S2048x128 (shapeCast S2048x1 (multiReduction .maximumf [1] S2048 L 0xFF800000#32 h hφ hM) hc) hb) (ix2 r q)
      = L (ix2 r q) - rowMax (fun q => L (ix2 r q)) := by
  refine congrArg (L (ix2 r q) - ·) ?_
  refine (broadcastTo_a1_ab_apply _ hb r q).trans ?_
  exact rowMaxCol_apply L _ h hφ hM hc r 0

/-- From the logits L and the masks M of a block's rows, the matrix of the rows' terms, at (r, p). -/
theorem term_apply (L M : FVec Ideal S2048x128 .f32) (h : S2048x128.Reduces [1] S2048) (hφ : FKind.Formats .f32)
    (hM : (0xFF800000#32 : BitVec 32) = FKind.maximumf.neutral .f32 hφ)
    (hA : (0x00000000#32 : BitVec 32) = FKind.add.neutral .f32 hφ)
    (hc : S2048.ShapeCasts S2048x1) (hb : S2048x1.Broadcasts S2048x128) (r : Fin 2048) (p : Fin 128) :
    mulf M (subf
        (subf L (broadcastTo S2048x128 (shapeCast S2048x1 (multiReduction .maximumf [1] S2048 L 0xFF800000#32 h hφ hM) hc) hb))
        (broadcastTo S2048x128 (log (shapeCast S2048x1 (multiReduction .add [1] S2048
          (mulf
            (exp (subf L (broadcastTo S2048x128 (shapeCast S2048x1 (multiReduction .maximumf [1] S2048 L 0xFF800000#32 h hφ hM) hc) hb)))
            (subf (broadcast S2048x128 (Scalar.ofBits (F := Ideal) .f32 0x3F800000#32)) M))
          0x00000000#32 h hφ hA) hc)) hb)) (ix2 r p)
      = rowTerm (fun q => L (ix2 r q)) (fun q => M (ix2 r q)) p := by
  unfold rowTerm
  refine congrArg (M (ix2 r p) * ·) ?_
  refine congrArg₂ (· - ·) (shifted_apply L h hφ hM hc hb r p) ?_
  refine (broadcastTo_a1_ab_apply _ hb r p).trans ?_
  refine congrArg Ideal.log ?_
  refine (rowSumCol_apply _ _ h hφ hA hc r 0).trans ?_
  unfold rowSumExp
  refine Finset.sum_congr rfl fun q _ => ?_
  exact congrArg₂ (· * ·) (congrArg Ideal.exp (shifted_apply L h hφ hM hc hb r q)) rfl

/-! ## The matrix of the rows' terms -/

/-- The matrix the body computes from the four loaded blocks, at row r and prototype p: the specification's term of
    the row's logits and mask there. -/
theorem pay4_apply (x0 : Vec Ideal S2048x512 .f32) (x2 : Vec Ideal S512x128 .f32) (x1 : Vec Ideal S2048x128 .i32)
    (x3 : Vec Ideal S1x128 .f32) (r : Fin 2048) (p : Fin 128) :
    k0_pay4 (F := Ideal) x0 x2 x1 x3 (ix2 r p)
      = rowTerm (kLogit (fun d => x0 (ix2 r d)) (fun q d => x2 (ix2 d q)))
          (maskRow (fun q => x1 (ix2 r q)) (fun q => x3 (ix2 0 q))) p := by
  unfold k0_pay4
  refine (term_apply _ _ _ _ _ _ _ _ r p).trans ?_
  refine congrArg₂ (fun L M => rowTerm L M p) (funext fun q => ?_) (funext fun q => ?_)
  · refine (logits_apply _ _ _ r q).trans ?_
    unfold kLogit
    refine congrArg₂ (· * ·) (Finset.sum_congr rfl fun d _ => ?_) Cert.Bridge.Consts.inv_temp
    refine congrArg₂ (· * ·) ?_ (congrFun (shapeCast_self x2 _) (ix2 d q))
    exact scaled_apply x0 _ Cert.Bridge.Consts.eps_sq _ _ _ _ _ r d
  · unfold maskRow
    refine congrArg₂ (· * ·) rfl ?_
    refine (broadcastTo_1b_ab_apply _ _ r q).trans ?_
    exact congrFun (shapeCast_self x3 _) (ix2 0 q)

/-! ## The accumulator's start, the output block, the accumulator's update -/

/-- The accumulator is reset to zero. -/
theorem pay3_apply (j : S1x1.Idx) : k0_pay3 (F := Ideal) j = 0 := by
  unfold k0_pay3
  rw [shapeCast_self]
  exact Ideal.ofBits_zero_f32

/-- The output block holds the accumulator's one entry everywhere. -/
theorem pay2_apply (acc : Vec Ideal S1x1 .f32) (i : S8x128.Idx) : k0_pay2 (F := Ideal) acc i = acc (ix2 0 0) := by
  unfold k0_pay2
  rw [shapeCast_self]
  exact broadcastTo_11_ab_apply acc _ i

/-- The accumulator receives the sum over the block's rows of the factor times the row's sum over the prototypes. -/
theorem pay1_apply (v38 : FVec Ideal S2048x128 .f32) (acc : Vec Ideal S1x1 .f32) (j : S1x1.Idx) :
    k0_pay1 (F := Ideal) v38 acc j = acc j + ∑ r : Fin 2048, negTemp * ∑ p : Fin 128, v38 (ix2 r p) := by
  obtain ⟨a, b, rfl⟩ : ∃ (a : Fin 1) (b : Fin 1), j = ix2 a b := ⟨j 0, j 1, eq_ix2 j⟩
  unfold k0_pay1
  rw [shapeCast_self]
  refine congrArg (acc (ix2 a b) + ·) ?_
  refine (shapeCast_a_1a_apply _ _ a b).trans ?_
  refine (colSum_apply _ _ _ _ _ b).trans ?_
  refine Finset.sum_congr rfl fun r _ => ?_
  refine congrArg (negTemp * ·) ?_
  exact rowSumCol_apply v38 _ _ _ _ _ r b

end Cert.Bridge.Payload

end
-- ==== Proof.Accum.lean ====
/-
  The kernel's accumulator and its output array, as numbers.

  Read at the extended reals, the block of row terms the body computes at point t is the 2048 rows 2048·t + r of the
  row terms of the argument arrays, so the accumulator grows by that block's sum.  By induction on the point, after
  point n the accumulator holds the ordered sum of the blocks 16·(n / 16) … n of core n / 16.  The output array's
  block c (rows 8·c … 8·c + 7) is written once, after the core's last block, with the core's total in every entry;
  the two blocks cover the array.
-/
import proofs.«153820_j89678917140921_2_alg».proof.Proof.Carry
import proofs.«153820_j89678917140921_2_alg».proof.Proof.Blocks
import proofs.«153820_j89678917140921_2_alg».proof.Proof.Payload
import proofs.«153820_j89678917140921_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.Bridge.Accum

open Cert.KernelIdeal Cert.KernelIdeal.Gen Cert.Bridge.Spec

variable (m : (ℓ : Loc nD τ sig) → Buf (Elt Ideal) ℓ)

/-- The rows' terms of the argument arrays as core c's memory holds them, in the kernel's form. -/
def rows (c : Dev nD) : Fin 65536 → EReal :=
  kerRow (m ((c : Thread nD τ).loc main_arg2)) (m ((c : Thread nD τ).loc main_arg3))
    (m ((c : Thread nD τ).loc main_arg4)) (m ((c : Thread nD τ).loc main_arg5))

theorem N32 : cfg0.N = 32 := N_0

/-- The block of row terms at point t sums to the t-th block sum of the rows' terms. -/
theorem block_sum (c : Dev nD) (t : Fin cfg0.N) :
    ∑ r : Fin 2048, negTemp * ∑ p : Fin 128, Carry.rowTerms m c t (ix2 r p) = blockSum (rows m c) t.val := by
  have hN : t.val < 32 := lt_of_lt_of_eq t.isLt N32
  unfold blockSum
  rw [dif_pos hN]
  refine Finset.sum_congr rfl fun r _ => ?_
  have hrow : 2048 * t.val + r.val < 65536 := by have := r.isLt; omega
  show _ = rowLoss _ _
  unfold rowLoss
  refine congrArg (negTemp * ·) (Finset.sum_congr rfl fun p _ => ?_)
  unfold Carry.rowTerms
  refine (Payload.pay4_apply (iblk m c 0 t) (iblk m c 2 t) (iblk m c 1 t) (iblk m c 3 t) r p).trans ?_
  have eL : kLogit (fun d => (iblk m c 0 t : Vec Ideal S2048x512 .f32) (ix2 r d))
        (fun q d => (iblk m c 2 t : Vec Ideal S512x128 .f32) (ix2 d q))
      = kLogit (fun d => m ((c : Thread nD τ).loc main_arg2) (ix2 (rowIx ⟨t.val, hN⟩ r) d))
        (fun q d => m ((c : Thread nD τ).loc main_arg3) (ix2 q d)) := by
    congr 1
    · funext d; exact Blocks.features_block m c t r d hrow
    · funext q d; exact Blocks.protos_block m c t d q
  have eM : maskRow (fun q => (iblk m c 1 t : Vec Ideal S2048x128 .i32) (ix2 r q))
        (fun q => (iblk m c 3 t : Vec Ideal S1x128 .f32) (ix2 0 q))
      = maskRow (fun q => m ((c : Thread nD τ).loc main_arg4) (ix2 (rowIx ⟨t.val, hN⟩ r) q))
        (fun q => m ((c : Thread nD τ).loc main_arg5) (ix1 q)) := by
    congr 1
    · funext q; exact Blocks.labels_block m c t r q hrow
    · funext q; exact Blocks.weights_block m c t q
  exact congrArg₂ (fun L M => rowTerm L M p) eL eM

/-- After point n the accumulator holds core n / 16's ordered sum of its blocks up to n. -/
theorem acc_eq (c : Dev nD) : ∀ (n : ℕ) (h : n < cfg0.N) (j : S1x1.Idx),
    (outsAt0 m c n h).2 j = coreAcc (rows m c) (n / 16) (n % 16)
  | 0, h, j => by
    show Carry.acc m c ⟨0, h⟩ j = _
    rw [Carry.acc_first m c ⟨0, h⟩ rfl]
    refine (Payload.pay1_apply (Carry.rowTerms m c ⟨0, h⟩) (k0_pay3 (F := Ideal)) j).trans ?_
    rw [Payload.pay3_apply, block_sum]
    rfl
  | n + 1, h, j => by
    have hN : n + 1 < 32 := lt_of_lt_of_eq h N32
    show Carry.acc m c ⟨n + 1, h⟩ j = _
    by_cases h0 : (n + 1) % 16 = 0
    · rw [Carry.acc_first m c ⟨n + 1, h⟩ h0]
      refine (Payload.pay1_apply (Carry.rowTerms m c ⟨n + 1, h⟩) (k0_pay3 (F := Ideal)) j).trans ?_
      rw [Payload.pay3_apply, block_sum, h0]
      show 0 + blockSum (rows m c) (n + 1) = 0 + blockSum (rows m c) (16 * ((n + 1) / 16))
      rw [show 16 * ((n + 1) / 16) = n + 1 by omega]
    · rw [Carry.acc_next m c ⟨n + 1, h⟩ h0]
      refine (Payload.pay1_apply (Carry.rowTerms m c ⟨n + 1, h⟩)
        (outsAt0 m c n (Nat.lt_of_succ_lt h)).2 j).trans ?_
      rw [block_sum, acc_eq c n (Nat.lt_of_succ_lt h) j,
        show (n + 1) / 16 = n / 16 by omega, show (n + 1) % 16 = n % 16 + 1 by omega]
      show _ = coreAcc (rows m c) (n / 16) (n % 16) + blockSum (rows m c) (16 * (n / 16) + (n % 16 + 1))
      rw [show 16 * (n / 16) + (n % 16 + 1) = n + 1 by omega]

/-- The output array after the run: every entry of rows 8·c … 8·c + 7 is core c's total. -/
def outArr (c : Dev nD) : S16x128.Idx → EReal := fun i => coreAcc (rows m c) ((i 0).val / 8) 15

/-- What a core's last point writes back is its block of that array. -/
theorem flushed_eq (c : Dev nD) (t : Fin cfg0.N) (hf : (cfg0.win 4).flush t = true) :
    (dats m 0 c).flushed 4 t = ((cfg0.win 4).blk t).view.read (Elt Ideal) (outArr m c) := by
  have h15 : t.val % 16 = 15 := (flush0_4 t).mp hf
  obtain ⟨-, -, -, -, -, -, -, -, e0, e1⟩ := Blocks.idx_facts t
  show (cfg0.win 4).cut (grid0.coords t) ((dats m 0 c).after 4 t) = _
  rw [after0_4, Carry.out_last m c t h15]
  funext y
  rw [View.read_apply]
  show k0_pay2 (Carry.acc m c t) y = coreAcc (rows m c) ((win0_4.index t (0 : Fin 2) * 8 + 1 * (y 0).val) / 8) 15
  refine (Payload.pay2_apply (Carry.acc m c t) y).trans ?_
  have hy : (y 0).val < 8 := (y 0).isLt
  rw [show (win0_4.index t (0 : Fin 2) * 8 + 1 * (y 0).val) / 8 = t.val / 16 by omega]
  show (outsAt0 m c t.val t.isLt).2 (ix2 0 0) = _
  rw [acc_eq m c t.val t.isLt (ix2 0 0), h15]

/-- An index of the output array is in point t's block iff each coordinate is in the block's range. -/
theorem mem_blk (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v2).slice (win0_4.rect t)).set ↔ _
  rw [View.set_slice_whole, Rect.mem_set_unit]
  exact Iff.rfl

/-- The two written blocks cover the output array, so it ends holding the cores' totals. -/
theorem final (c : Dev nD) : (dats m 0 c).arrAt 4 cfg0.N = outArr m c :=
  (dats m 0 c).arrAt_eq_of_cover 4 (outArr m c) (flushed_eq m c) fun i => by
    have hi0 : (i 0).val < 16 := (i 0).isLt
    have hi1 : (i 1).val < 128 := (i 1).isLt
    have ht : 16 * ((i 0).val / 8) + 15 < cfg0.N := by rw [N32]; omega
    refine ⟨⟨16 * ((i 0).val / 8) + 15, ht⟩, (flush0_4 _).mpr (by show (16 * ((i 0).val / 8) + 15) % 16 = 15; omega), ?_⟩
    obtain ⟨-, -, -, -, -, -, -, -, e0, e1⟩ := Blocks.idx_facts ⟨16 * ((i 0).val / 8) + 15, ht⟩
    rw [mem_blk]
    intro a
    match a with
    | ⟨0, _⟩ =>
      show win0_4.index ⟨16 * ((i 0).val / 8) + 15, ht⟩ (0 : Fin 2) * 8 ≤ (i 0).val ∧ (i 0).val < win0_4.index ⟨16 * ((i 0).val / 8) + 15, ht⟩ (0 : Fin 2) * 8 + 8
      rw [e0]; show (16 * ((i 0).val / 8) + 15) / 16 * 8 ≤ _ ∧ _ < (16 * ((i 0).val / 8) + 15) / 16 * 8 + 8; omega
    | ⟨1, _⟩ =>
      show win0_4.index ⟨16 * ((i 0).val / 8) + 15, ht⟩ (1 : Fin 2) * 128 ≤ (i 1).val ∧ (i 1).val < win0_4.index ⟨16 * ((i 0).val / 8) + 15, ht⟩ (1 : Fin 2) * 128 + 128
      rw [e1]; omega

end Cert.Bridge.Accum

end
-- ==== Proof.Tail.lean ====
/-
  After the grid: the program reads entry (0, 0) and entry (8, 0) of the output array (the two cores' totals), adds
  them, multiplies by 1 and divides by 65536.  With the output array known, that is the kernel's result as a number,
  and the kernel's run is re-stated with its result named.
-/
import proofs.«153820_j89678917140921_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Bridge.Tail

open Cert.KernelIdeal Cert.KernelIdeal.Gen Cert.Bridge.Spec

variable (m : (ℓ : Loc nD τ sig) → Buf (Elt Ideal) ℓ) (ρ : Dev nD → PrngReg)

/-- A one-by-one array has one index. -/
theorem idx11 (k : S1x1.Idx) : k = ix2 0 0 := by
  funext d; apply Fin.ext
  match d with
  | ⟨0, _⟩ => have h : (k 0).val < 1 := (k 0).isLt; show (k 0).val = 0; omega
  | ⟨1, _⟩ => have h : (k 1).val < 1 := (k 1).isLt; show (k 1).val = 0; omega

/-- Reading a one-by-one array as a scalar reads its one entry. -/
theorem scalar_of (x : S1x1.Idx → EReal) (i : S_.Idx) : shapeCast S_ x shapeCasts_S1x1_S_ i = x (ix2 0 0) := by
  unfold shapeCast
  exact congrArg x (idx11 _)

/-- The one-by-one slice at the origin holds entry (0, 0) ... -/
theorem corner0 (A : S16x128.Idx → EReal) :
    extractStridedSlice S1x1 ![0, 0] A slices_S16x128_S1x1_0_0 (ix2 0 0) = A (ix2 0 0) :=
  extractStridedSlice_apply _ _ _ _ (ix2 0 0) (fun a => by match a with | ⟨0, _⟩ => rfl | ⟨1, _⟩ => rfl)

/-- ... and the one at row 8 holds entry (8, 0). -/
theorem corner8 (A : S16x128.Idx → EReal) :
    extractStridedSlice S1x1 ![8, 0] A slices_S16x128_S1x1_8_0 (ix2 0 0) = A (ix2 8 0) :=
  extractStridedSlice_apply _ _ _ _ (ix2 8 0) (fun a => by match a with | ⟨0, _⟩ => rfl | ⟨1, _⟩ => rfl)

/-- The program's result: the two cores' totals added, times 1, over 65536. -/
theorem result_eq (c : Dev nD) :
    (Pipeline.afterTail₀ cfgs (dats m) 0 (V0 m) [hostOps1] c main_v9 : S_.Idx → EReal)
      = fun _ => kerTotal (Accum.rows m c) := by
  unfold Pipeline.afterTail₀
  show StableHlo.after hostOps1 _ (Proc.devRef .tc main_v9) = _
  after_results
  have hA : Pipeline.withArrays (cfgs 0).spec c (V0 m c) (fun w => (dats m 0 c).arrAt w (cfgs 0).N) (Proc.devRef .tc main_v2)
      = Accum.outArr m c :=
    (Pipeline.withArrays_arr spec0 launch0.win.arr_inj c _ _ 4).trans (Accum.final m c)
  rw [hA]
  funext i
  show Ideal.div (one * (shapeCast S_ (extractStridedSlice S1x1 ![0, 0] (Accum.outArr m c) slices_S16x128_S1x1_0_0) shapeCasts_S1x1_S_ i
      + shapeCast S_ (extractStridedSlice S1x1 ![8, 0] (Accum.outArr m c) slices_S16x128_S1x1_8_0) shapeCasts_S1x1_S_ i)) nRows = _
  rw [scalar_of, scalar_of, corner0, corner8]
  rfl

/-- The kernel's run with its result named and its arguments unchanged. -/
theorem run : θ_run defs (onTc (τ := τ) (main (F := Ideal))) ⟨m, fun _ => 0, ρ⟩ fun r => ∀ c : Dev nD,
      r.2.mem ((c.tc : Thread nD τ).loc main_v9) = (fun _ => kerTotal (Accum.rows m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.Bridge.Tail

end
-- ==== Proof.RefValue.lean ====
/-
  The reference program's result, read as the specification's function of the argument arrays.

  Row n of the features is divided by its length clamped from below, multiplied against the prototype rows and divided by
  the temperature: the row's logits.  The row's largest logit is the fold of max from -∞ over the 128 prototypes; the sum
  under the logarithm, the row's term and the total over the 65536 rows are sums from the zero word, which is 0.
-/
import proofs.«153820_j89678917140921_2_alg».proof.Proof.Spec
import proofs.«153820_j89678917140921_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Bridge.RefValue

open Idealize.ShloMosaic Idealize.ShloMosaic.ValueIdx Cert.Bridge.Spec Cert.ReferenceIdeal Cert.ReferenceIdeal.Gen
  Cert.ReferenceIdeal.Read

/-! ## The arrays, abbreviated -/

/-- The features. -/
abbrev XTy : Type := (⟨S65536x512, .f32⟩ : BufTy).Contents (Elt Ideal)
/-- The prototypes. -/
abbrev WTy : Type := (⟨S128x512, .f32⟩ : BufTy).Contents (Elt Ideal)
/-- The labels. -/
abbrev LTy : Type := (⟨S65536x128, .i32⟩ : BufTy).Contents (Elt Ideal)
/-- The prototype weights. -/
abbrev PTy : Type := (⟨S128, .f32⟩ : BufTy).Contents (Elt Ideal)

/-- Row n of the features. -/
abbrev xrow (x2 : XTy) (n : Fin 65536) : Fin 512 → EReal := fun d => x2 (ix2 n d)
/-- The prototypes by prototype and feature. -/
abbrev wmat (x3 : WTy) : Fin 128 → Fin 512 → EReal := fun p d => x3 (ix2 p d)
/-- Row n's logits. -/
abbrev logits (x2 : XTy) (x3 : WTy) (n : Fin 65536) : Fin 128 → EReal := rLogit (xrow x2 n) (wmat x3)
/-- Row n's mask. -/
abbrev mask (x4 : LTy) (x5 : PTy) (n : Fin 65536) : Fin 128 → EReal :=
  maskRow (fun p => x4 (ix2 n p)) (fun p => x5 (ix1 p))

/-! ## The row's length, clamped -/

/-- The clamped length of row n, at either index of the column that holds it. -/
theorem norm_at (x2 : XTy) (n : Fin 65536) (c : Fin 1) :
    val_main_v2 (F := Ideal) x2 (ix2 n c) = max (Ideal.sqrt (sqsum (xrow x2 n))) eps := by
  rw [val_main_v2_apply, val_main_v0_apply, val_main_call0_v2_apply, val_main_call0_v1_apply, val_main_v1_apply,
    val_main_cst_apply, val_main_call0_cst_apply]
  have e : ∀ k : Fin 512, idx_main_call0_v1 (idx_main_call0_v2 (ix2 n c)) k = ix2 n k := fun k =>
    funext fun a => Fin.ext (by match a with | ⟨0, _⟩ => rfl | ⟨1, _⟩ => rfl)
  simp only [e, val_main_call0_v0_apply, Ideal.mulf_def, Ideal.maximumf_def, Ideal.hostUnary_sqrt_def, Ideal.ofBits_def,
    Ideal.ofBits_zero_f32, zero_add]
  rfl

/-- Row n scaled: each entry divided by the clamped length. -/
theorem scaled_at (x2 : XTy) (n : Fin 65536) (d : Fin 512) :
    val_main_v4 (F := Ideal) x2 (ix2 n d) = rScale (xrow x2 n) d := by
  rw [val_main_v4_apply, val_main_v3_apply]
  have e : idx_main_v3 (ix2 n d) = ix2 n (0 : Fin 1) :=
    funext fun a => Fin.ext (by match a with | ⟨0, _⟩ => rfl | ⟨1, _⟩ => rfl)
  rw [e, norm_at]
  rfl

/-- Row n's logit against prototype p. -/
theorem logit_at (x2 : XTy) (x3 : WTy) (n : Fin 65536) (p : Fin 128) :
    val_main_v7 (F := Ideal) x2 x3 (ix2 n p) = logits x2 x3 n p := by
  rw [val_main_v7_apply, val_main_v5_apply, val_main_v6_apply, val_main_cst_0_apply]
  have el : ∀ k : Fin 512, lidx_main_v5 (ix2 n p) k = ix2 n k := fun k =>
    funext fun a => Fin.ext (by match a with | ⟨0, _⟩ => rfl | ⟨1, _⟩ => rfl)
  have er : ∀ k : Fin 512, ridx_main_v5 (ix2 n p) k = ix2 p k := fun k =>
    funext fun a => Fin.ext (by match a with | ⟨0, _⟩ => rfl | ⟨1, _⟩ => rfl)
  simp only [el, er, scaled_at]
  rfl

/-! ## The row's largest logit -/

/-- The reduced index n with the prototype q put back on the reduced axis is (n, q). -/
theorem lift_max (h : S65536x128.Reduces [1] S65536) (n : Fin 65536) (q : Fin 128) :
    h.lift (ix1 n) q = ix2 n q :=
  funext fun a => Fin.ext (by match a with | ⟨0, _⟩ => rfl | ⟨1, _⟩ => rfl)

/-- Row n's largest logit: the fold of max from -∞ over the prototypes. -/
theorem max_at (x2 : XTy) (x3 : WTy) (n : Fin 65536) :
    val_main_v8 (F := Ideal) x2 x3 (ix1 n) = rowMax (logits x2 x3 n) := by
  have h : S65536x128.Reduces [1] S65536 := by decide
  unfold val_main_v8
  rw [Host.reduce_eq_fold_single (FloatOps.maximumf (F := Ideal) (φ := .f32)) _ _ reducesTo_S65536x128_S65536_d1
    h h_S_ (ix1 n)]
  refine Finset.fold_congr fun q _ => ?_
  exact (congrArg (val_main_v7 (F := Ideal) x2 x3) (lift_max h n q)).trans (logit_at x2 x3 n q)

/-- Row n's logit against prototype q, less the row's largest logit. -/
theorem shift_at (x2 : XTy) (x3 : WTy) (n : Fin 65536) (q : Fin 128) :
    val_main_v11 (F := Ideal) x2 x3 (ix2 n q) = logits x2 x3 n q - rowMax (logits x2 x3 n) := by
  rw [val_main_v11_apply, val_main_v10_apply, val_main_v9_apply, logit_at]
  have e : idx_main_v9 (idx_main_v10 (ix2 n q)) = ix1 n :=
    funext fun a => Fin.ext (by match a with | ⟨0, _⟩ => rfl)
  rw [e, max_at]
  rfl

/-! ## The row's mask -/

/-- Row n's mask at prototype q: the label's integer times the prototype's weight. -/
theorem mask_at (x4 : LTy) (x5 : PTy) (n : Fin 65536) (q : Fin 128) :
    val_main_v15 (F := Ideal) x4 x5 (ix2 n q) = mask x4 x5 n q := by
  rw [val_main_v15_apply, val_main_v12_apply, val_main_v14_apply, val_main_v13_apply]
  have e : idx_main_v13 (idx_main_v14 (ix2 n q)) = ix1 q :=
    funext fun a => Fin.ext (by match a with | ⟨0, _⟩ => rfl)
  rw [e]
  rfl

/-! ## The sum under the logarithm, and the row's term -/

/-- Row n's sum under the logarithm. -/
theorem sumexp_at (x2 : XTy) (x3 : WTy) (x4 : LTy) (x5 : PTy) (n : Fin 65536) :
    val_main_v20 (F := Ideal) x2 x3 x4 x5 (ix1 n) = rowSumExp (logits x2 x3 n) (mask x4 x5 n) := by
  rw [val_main_v20_apply, val_main_cst_3_apply]
  have e : ∀ k : Fin 128, idx_main_v20 (ix1 n) k = ix2 n k := fun k =>
    funext fun a => Fin.ext (by match a with | ⟨0, _⟩ => rfl | ⟨1, _⟩ => rfl)
  simp only [e, val_main_v19_apply, val_main_v16_apply, val_main_v18_apply, val_main_v17_apply, val_main_cst_2_apply,
    shift_at, mask_at, Ideal.mulf_def, Ideal.subf_def, Ideal.hostUnary_exp_def, Ideal.ofBits_def, Ideal.ofBits_zero_f32,
    zero_add]
  rfl

/-- Prototype p's contribution to row n's term. -/
theorem term_at (x2 : XTy) (x3 : WTy) (x4 : LTy) (x5 : PTy) (n : Fin 65536) (p : Fin 128) :
    val_main_v25 (F := Ideal) x2 x3 x4 x5 (ix2 n p) = rowTerm (logits x2 x3 n) (mask x4 x5 n) p := by
  rw [val_main_v25_apply, val_main_v24_apply, val_main_v23_apply, val_main_v22_apply, val_main_v21_apply, mask_at,
    shift_at]
  have e : idx_main_v21 (idx_main_v23 (ix2 n p)) = ix1 n :=
    funext fun a => Fin.ext (by match a with | ⟨0, _⟩ => rfl)
  rw [e, sumexp_at]
  rfl

/-- Row n's term. -/
theorem row_at (x2 : XTy) (x3 : WTy) (x4 : LTy) (x5 : PTy) (n : Fin 65536) :
    val_main_v28 (F := Ideal) x2 x3 x4 x5 (ix1 n) = refRow x2 x3 x4 x5 n := by
  rw [val_main_v28_apply, val_main_v27_apply, val_main_cst_5_apply, val_main_v26_apply, val_main_cst_4_apply]
  have e : ∀ k : Fin 128, idx_main_v26 (ix1 n) k = ix2 n k := fun k =>
    funext fun a => Fin.ext (by match a with | ⟨0, _⟩ => rfl | ⟨1, _⟩ => rfl)
  simp only [e, term_at, Ideal.mulf_def, Ideal.ofBits_def, Ideal.ofBits_zero_f32, zero_add]
  rfl

/-! ## All rows -/

/-- A row number is a rank-1 index and back. -/
def rowEquiv : Fin 65536 ≃ S65536.Idx where
  toFun n := ix1 n
  invFun j := j 0
  left_inv _ := rfl
  right_inv j := (eq_ix1 j).symm

/-- The sum over the rank-1 indices is the sum over the row numbers. -/
theorem sum_rows (f : S65536.Idx → EReal) : ∑ j : S65536.Idx, f j = ∑ n : Fin 65536, f (ix1 n) :=
  (Equiv.sum_comp rowEquiv f).symm

/-- The reference's result: the rows' terms summed from 0, over the number of rows, times 1. -/
theorem ref_value
    (x2 : (⟨Cert.ReferenceIdeal.S65536x512, .f32⟩ : BufTy).Contents (Elt Ideal))
    (x3 : (⟨Cert.ReferenceIdeal.S128x512, .f32⟩ : BufTy).Contents (Elt Ideal))
    (x4 : (⟨Cert.ReferenceIdeal.S65536x128, .i32⟩ : BufTy).Contents (Elt Ideal))
    (x5 : (⟨Cert.ReferenceIdeal.S128, .f32⟩ : BufTy).Contents (Elt Ideal)) :
    Cert.ReferenceIdeal.Read.val_main_v31 (F := Ideal) x2 x3 x4 x5 = fun _ => refTotal (refRow x2 x3 x4 x5) := by
  funext i
  rw [val_main_v31_apply, val_main_v30_apply, val_main_v29_apply, val_main_cst_8_apply, val_main_cst_7_apply,
    val_main_cst_6_apply, sum_rows]
  simp only [row_at, Ideal.mulf_def, Ideal.hostDivf_def, Ideal.ofBits_def, Ideal.ofBits_zero_f32]
  rfl

end Cert.Bridge.RefValue

end
-- ==== Proof.Law.lean ====
/-
  The algebra on the extended reals behind the agreement of the two programs.

  One row.  A row x of real numbers has squared length s = Σ x_d², a nonnegative real.  The kernel multiplies each entry
  by the reciprocal square root of max(s, ε²); the reference divides each entry by max(√s, ε).  As the square root is
  monotone and ε > 0, √(max(s, ε²)) = max(√s, ε), a positive real, and dividing by a positive real is multiplying by
  its reciprocal: the two scalings agree entry by entry.  The logits then differ only in "times 1/T" against
  "divided by T" for the positive real T, which agree on every extended real.

  All rows.  Each core adds its sixteen block sums in order from 0; the two cores' results added are the sum of the
  thirty-two block sums, and a block sum runs over the rows 2048·b + r, r < 2048.  As every row number below 65536 is
  2048·b + r for exactly one pair (b, r) with b < 32 and r < 2048, the thirty-two block sums add up to the sum over
  all rows.  Sums on the extended reals may be re-associated and reordered freely (addition is a commutative monoid).
-/
import proofs.«153820_j89678917140921_2_alg».proof.Proof.Spec

noncomputable section

open scoped BigOperators

namespace Cert.Bridge.Law

open Cert.Bridge.Spec Idealize.ShloMosaic

/-! ## The constants' values -/

/-- The clamp word denotes 2305843 / 2^61. -/
theorem eps_word :
    Ideal.ofBits .f32 0x2B8CBCCC#32 = ((2305843 / 2305843009213693952 : ℝ) : EReal) := by
  simp [Ideal.ofBits, Ideal.ieee, -EReal.coe_mul]; norm_num

/-- The temperature word denotes 13421773 / 2^27. -/
theorem temp_word :
    Ideal.ofBits .f32 0x3DCCCCCD#32 = ((13421773 / 134217728 : ℝ) : EReal) := by
  simp [Ideal.ofBits, Ideal.ieee, -EReal.coe_mul]; norm_num

/-- The word of 1.0 denotes 1. -/
theorem one_word : Ideal.ofBits .f32 0x3F800000#32 = 1 := by
  simp [Ideal.ofBits, Ideal.ieee, -EReal.coe_mul]; norm_num

theorem eps_eq : eps = ((2305843 / 2305843009213693952 : ℝ) : EReal) := eps_word
theorem temp_eq : temp = ((13421773 / 134217728 : ℝ) : EReal) := temp_word
theorem one_eq : one = 1 := one_word

/-! ## One row -/

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion commutes with the maximum. -/
theorem coe_max (a b : ℝ) : ((max a b : ℝ) : EReal) = max (a : EReal) (b : EReal) :=
  EReal.coe_strictMono.monotone.map_max

/-- The kernel's clamp is the square of the reference's. -/
theorem epsSq_real : (5316911940649 / 5316911983139663491615228241121378304 : ℝ)
    = (2305843 / 2305843009213693952 : ℝ) * (2305843 / 2305843009213693952 : ℝ) := by norm_num

/-- The square root of the clamped squared length is the clamped length. -/
theorem sqrt_max (S : ℝ) :
    Real.sqrt (max S (5316911940649 / 5316911983139663491615228241121378304))
      = max (Real.sqrt S) (2305843 / 2305843009213693952) := by
  rw [Real.sqrt_monotone.map_max, epsSq_real, Real.sqrt_mul_self (by norm_num)]

/-- On a row of real numbers the two scalings agree entry by entry. -/
theorem scale_eq (ξ : Fin 512 → ℝ) (d : Fin 512) :
    kScale (fun d => (ξ d : EReal)) d = rScale (fun d => (ξ d : EReal)) d := by
  have hs : sqsum (fun d => (ξ d : EReal)) = ((∑ d, ξ d * ξ d : ℝ) : EReal) := by
    rw [sqsum, coe_sum]
    exact Finset.sum_congr rfl fun d _ => (EReal.coe_mul _ _).symm
  have hS0 : (0 : ℝ) ≤ ∑ d, ξ d * ξ d := Finset.sum_nonneg fun d _ => mul_self_nonneg _
  generalize (∑ d, ξ d * ξ d : ℝ) = S at hs hS0
  have he : (0 : ℝ) < 2305843 / 2305843009213693952 := by norm_num
  have hN : (0 : ℝ) < max (Real.sqrt S) (2305843 / 2305843009213693952) := lt_max_of_lt_right he
  have hM : (0 : ℝ) < max S (5316911940649 / 5316911983139663491615228241121378304) :=
    lt_max_of_lt_right (by norm_num)
  have hk : Ideal.rsqrt (max (sqsum (fun d => (ξ d : EReal))) epsSq)
      = (((max (Real.sqrt S) (2305843 / 2305843009213693952))⁻¹ : ℝ) : EReal) := by
    rw [hs, ← coe_max, Ideal.rsqrt_coe, if_neg (not_lt.mpr hM.le), if_neg hM.ne', sqrt_max]
  have hr : max (Ideal.sqrt (sqsum (fun d => (ξ d : EReal)))) eps
      = ((max (Real.sqrt S) (2305843 / 2305843009213693952) : ℝ) : EReal) := by
    rw [hs, eps_eq, Ideal.sqrt_coe, if_neg (not_lt.mpr hS0), ← coe_max]
  rw [kScale, rScale, hk, hr, Ideal.div_coe hN.ne', one_div]

/-- On a row of real numbers the kernel's scaled logits are the reference's. -/
theorem logit_eq (x : Fin 512 → EReal) (hx : ∀ d, ∃ r : ℝ, x d = (r : EReal)) (W : Fin 128 → Fin 512 → EReal) :
    kLogit x W = rLogit x W := by
  choose ξ hξ using hx
  obtain rfl : x = fun d => (ξ d : EReal) := funext hξ
  funext p
  have ht : (13421773 / 134217728 : ℝ) ≠ 0 := by norm_num
  have hinv : (1 / (13421773 / 134217728) : ℝ) = 134217728 / 13421773 := by norm_num
  rw [kLogit, rLogit, temp_eq, Ideal.div_coe ht, hinv]
  exact congrArg (· * invTemp) (Finset.sum_congr rfl fun d _ => congrArg (· * W p d) (scale_eq ξ d))

/-! ## All rows -/

/-- A core's accumulator after its j-th block is the sum of its first j + 1 block sums. -/
theorem coreAcc_eq (f : Fin 65536 → EReal) (c : ℕ) :
    ∀ j : ℕ, coreAcc f c j = ∑ k ∈ Finset.range (j + 1), blockSum f (16 * c + k)
  | 0 => by
      rw [coreAcc, Finset.sum_range_succ, Finset.sum_range_zero, Nat.add_zero]
  | j + 1 => by
      rw [coreAcc, coreAcc_eq f c j, Finset.sum_range_succ _ (j + 1)]

/-- Row numbers below 65536 are the pairs (block, row within the block). -/
def rowEquiv : Fin 32 × Fin 2048 ≃ Fin 65536 where
  toFun p := rowIx p.1 p.2
  invFun n := (⟨n.val / 2048, by have := n.isLt; omega⟩, ⟨n.val % 2048, by omega⟩)
  left_inv := by
    rintro ⟨b, r⟩
    have hb := b.isLt
    have hr := r.isLt
    refine Prod.ext (Fin.ext ?_) (Fin.ext ?_)
    · show (2048 * b.val + r.val) / 2048 = b.val
      omega
    · show (2048 * b.val + r.val) % 2048 = r.val
      omega
  right_inv := by
    intro n
    refine Fin.ext ?_
    show 2048 * (n.val / 2048) + n.val % 2048 = n.val
    omega

/-- The thirty-two block sums add up to the sum over all rows. -/
theorem sum_blocks (f : Fin 65536 → EReal) : ∑ k ∈ Finset.range 32, blockSum f k = ∑ n, f n := by
  rw [← Equiv.sum_comp rowEquiv f, Fintype.sum_prod_type, ← Fin.sum_univ_eq_sum_range (blockSum f) 32]
  refine Finset.sum_congr rfl fun b _ => ?_
  rw [blockSum, dif_pos b.isLt]
  rfl

/-- The two cores' ordered block sums are the sum over all rows. -/
theorem total_eq (f : Fin 65536 → EReal) : kerTotal f = refTotal f := by
  have h0 : coreAcc f 0 15 = ∑ k ∈ Finset.range 16, blockSum f k := by
    rw [coreAcc_eq]
    refine Finset.sum_congr rfl fun k _ => ?_
    rw [Nat.mul_zero, Nat.zero_add]
  have h1 : coreAcc f 1 15 = ∑ k ∈ Finset.range 16, blockSum f (16 + k) := by
    rw [coreAcc_eq]
  have h32 : ∑ k ∈ Finset.range 32, blockSum f k
      = ∑ k ∈ Finset.range 16, blockSum f k + ∑ k ∈ Finset.range 16, blockSum f (16 + k) :=
    Finset.sum_range_add (blockSum f) 16 16
  rw [kerTotal, refTotal, h0, h1, ← h32, sum_blocks, one_eq, one_mul, one_mul, zero_add]

end Cert.Bridge.Law

end
-- ==== Proof.Finite.lean ====
/-
  From the precondition to "every feature entry is a real number".

  The precondition says of each float argument that every entry's absolute value is below +∞, and joins the five
  statements by "and".  The absolute value of an extended real x is max(x, −x): it is +∞ when x is +∞ or −∞, so
  "max(x, −x) < +∞" leaves exactly the real numbers.  Read at the feature array this gives a real number behind
  every feature entry.
-/
import proofs.«153820_j89678917140921_2_alg».proof.Pre_finite_inputs
import Idealize.ShloMosaic.PureOps.Ideal
import Idealize.ShloMosaic.Lib.ReduceAll
import Idealize.ShloMosaic.Lib.ValueIdx

noncomputable section

namespace Cert.Bridge.Finite

open Idealize.ShloMosaic Cert.Pre_finite_inputs

variable [Cert.Pre_finite_inputs.Facts]

/-- The scalar shape has one index. -/
instance : Subsingleton S_.Idx := ⟨fun _ _ => funext fun d => d.elim0⟩

/-- The word of +∞ denotes the top element. -/
theorem inf_word : Ideal.ofBits .f32 0x7F800000#32 = ⊤ := by
  simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every feature entry is a real number. -/
theorem features_real (a0 a1 : FVec Ideal S65536x128 .f32) (a2 : FVec Ideal S65536x512 .f32) (a3 : FVec Ideal S128x512 .f32)
    (a4 : IVec S65536x128 32) (a5 : FVec Ideal S128 .f32)
    (h : Cert.Pre_finite_inputs.fn (F := Ideal) a0 a1 a2 a3 a4 a5 = (fun _ => 1#1)) :
    ∀ i : S65536x512.Idx, ∃ r : ℝ, a2 i = (r : EReal) := by
  intro i
  have e := congrFun h ValueIdx.ix0
  dsimp only [fn, fn_part1] at e
  have e1 := (IntOp.andi_eq_one.1 e).1
  have e2 := (IntOp.andi_eq_one.1 e1).1
  have e3 := (IntOp.andi_eq_one.1 e2).2
  have e4 := Host.reduce_andi_all _ _ _ _ _ e3 i
  refine real_of_abs_lt (a2 i) ?_
  rw [← inf_word]
  exact e4

end Cert.Bridge.Finite

end
-- ==== Proof.lean ====
/-
  A contrastive prototype loss: the kernel against its reference, equal as extended reals.

  Both programs scale every feature row to unit length (the length clamped from below by a small constant), take the
  row's 128 logits against the prototypes at temperature T, and sum over the rows the term
  c · Σ_p mask_p · ((L_p − max L) − log Σ_q exp (L_q − max L)(1 − mask_q)); the result is that sum over 65536.

  The kernel works on blocks of 2048 rows, sixteen blocks per core, keeps one running total per core and adds the two
  totals at the end; it multiplies by the reciprocal square root of the clamped squared length and by 1/T, where the
  reference divides by the clamped length and by T.  Its two folded constants are read as the exact square of the
  reference's clamp and the exact reciprocal of the reference's temperature.

  The proof: the kernel's run leaves each core's ordered total in the output array and the program's tail turns them
  into the result; the reference's run is its composed term, read one operation at a time; on rows of real numbers
  (the precondition) the two scalings agree, so the rows' terms agree; and the two cores' ordered block sums are the
  sum over all rows, as addition of extended reals is associative and commutative.
-/
import proofs.«153820_j89678917140921_2_alg».proof.Defs
import proofs.«153820_j89678917140921_2_alg».proof.Proof.Gen.Kernel
import proofs.«153820_j89678917140921_2_alg».proof.Proof.Gen.Kernel.Skeleton
import proofs.«153820_j89678917140921_2_alg».proof.Proof.Gen.Kernel.Launch
import proofs.«153820_j89678917140921_2_alg».proof.Proof.Gen.Kernel.Points
import proofs.«153820_j89678917140921_2_alg».proof.Proof.Gen.Kernel.Frame
import proofs.«153820_j89678917140921_2_alg».proof.Proof.Gen.KernelIdeal
import proofs.«153820_j89678917140921_2_alg».proof.Proof.Gen.KernelIdeal.Skeleton
import proofs.«153820_j89678917140921_2_alg».proof.Proof.Gen.KernelIdeal.Launch
import proofs.«153820_j89678917140921_2_alg».proof.Proof.Gen.KernelIdeal.Points
import proofs.«153820_j89678917140921_2_alg».proof.Proof.Gen.KernelIdeal.Frame
import proofs.«153820_j89678917140921_2_alg».proof.Proof.Gen.ReferenceIdeal
import proofs.«153820_j89678917140921_2_alg».proof.Proof.Gen.Pre_finite_inputs
import proofs.«153820_j89678917140921_2_alg».proof.Proof.Gen.ReferenceIdeal.Run
import proofs.«153820_j89678917140921_2_alg».proof.Proof.Gen.ReferenceIdeal.Read
import proofs.«153820_j89678917140921_2_alg».proof.Proof.Consts
import proofs.«153820_j89678917140921_2_alg».proof.Proof.Tail
import proofs.«153820_j89678917140921_2_alg».proof.Proof.RefValue
import proofs.«153820_j89678917140921_2_alg».proof.Proof.Law
import proofs.«153820_j89678917140921_2_alg».proof.Proof.Finite
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The two named constants denote, at the extended reals, the values the table gives them. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "inv_temp" .f32 0x41200000#32
      ((134217728 / 13421773 : ℝ) : EReal) rfl⟩

/-- From memories that agree on the arguments, both programs end with the same result. -/
theorem algebraic : Cert.algebraic_KernelIdeal_ReferenceIdeal := by
  intro m ρ m' ρ' hpre hagree
  refine ⟨fun c => fun _ => Cert.Bridge.Spec.kerTotal (Cert.Bridge.Accum.rows m c), Cert.Bridge.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Bridge.RefValue.ref_value]
  obtain ⟨-, -, e2, e3, e4, e5⟩ := hagree c
  rw [e2, e3, e4, e5]
  funext _
  rw [← Cert.Bridge.Law.total_eq]
  refine congrArg Cert.Bridge.Spec.kerTotal (funext fun n => ?_)
  unfold Cert.Bridge.Accum.rows Cert.Bridge.Spec.refRow Cert.Bridge.Spec.kerRow
  rw [Cert.Bridge.Law.logit_eq _ (fun d => Cert.Bridge.Finite.features_real _ _ _ _ _ _ (hpre c) _)]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
